-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S384x128 : Shape := ⟨2, ![384, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S800000 32) (main_arg2 : IVec S800000 32) (main_arg3 : FVec F S384x128 .f32) (main_arg4 : FVec F S128 .f32) (main_arg5 : FVec F S384x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S384x128 .f32 := Host.absf main_arg3
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_v13 main_v16
-- ==== Kernel.lean ====
abbrev S100000x128 : Shape := ⟨2, ![100000, 128]⟩
abbrev S800000 : Shape := ⟨1, ![800000]⟩
abbrev S384x128 : Shape := ⟨2, ![384, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩
abbrev S5000x128 : Shape := ⟨2, ![5000, 128]⟩
abbrev S5000x384 : Shape := ⟨2, ![5000, 384]⟩

abbrev nBuf : Space → Nat
  | .hbm => 97
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S384x128, .f32⟩
  | .hbm, ⟨4, _⟩ => ⟨S128, .f32⟩
  | .hbm, ⟨5, _⟩ => ⟨S384x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S100000, .f32⟩
  | .hbm, ⟨11, _⟩ => ⟨S800000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S800000x1, .i32⟩
  | .hbm, ⟨16, _⟩ => ⟨S100000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S100000x128, .f32⟩
  | .hbm, ⟨28, _⟩ => ⟨S800000x1, .i32⟩
  | .hbm, ⟨29, _⟩ => ⟨S100000x128, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S100000x128, .f32⟩
  | .hbm, ⟨47, _⟩ => ⟨S800000x1, .i32⟩
  | .hbm, ⟨48, _⟩ => ⟨S100000x128, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S100000x128, .f32⟩
  | .hbm, ⟨68, _⟩ => ⟨S800000x1, .i32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S_, .f32⟩
  | .hbm, ⟨86, _⟩ => ⟨S100000x128, .f32⟩
  | .hbm, ⟨87, _⟩ => ⟨S800000x1, .i32⟩
  | .hbm, ⟨88, _⟩ => ⟨S100000x128, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S384x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S384x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_13 : Ref sig .tc := ⟨.hbm, 76, rfl⟩
abbrev main_v54 : Ref sig .tc := ⟨.hbm, 77, rfl⟩
abbrev main_v55 : Ref sig .tc := ⟨.hbm, 78, rfl⟩
abbrev main_c_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x128_S5000x384_d1 : Shape.Concatenates [S5000x128, S5000x128, S5000x128] S5000x384 1
  inb_S384x128_S384x128_0_0 : ∀ a, (![0, 0] : Fin 2 → Nat) a + S384x128.size a ≤ S384x128.size a
  h_S384x128 : 0 < S384x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x384_S384x128_S5000x128_1_0_0_1_n_n_wf : DotDims.WF S5000x384 S384x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x128.size a ≤ S384x128.size a
  hwx1_3 : ∀ i : grid1.Coords, EltTy.bits .f32 = 32 ∨ (Rect.block (s := S384x128) S384x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v68) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S384x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S384x128 : Shape := ⟨2, ![384, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S800000x128 : Shape := ⟨2, ![800000, 128]⟩
abbrev S100000x1 : Shape := ⟨2, ![100000, 1]⟩
abbrev S100000x384 : Shape := ⟨2, ![100000, 384]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S384x128, .f32⟩
  | .hbm, ⟨4, _⟩ => ⟨S128, .f32⟩
  | .hbm, ⟨5, _⟩ => ⟨S384x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S100000, .f32⟩
  | .hbm, ⟨11, _⟩ => ⟨S800000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S800000x1, .i32⟩
  | .hbm, ⟨16, _⟩ => ⟨S100000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S100000x128, .f32⟩
  | .hbm, ⟨28, _⟩ => ⟨S800000x1, .i32⟩
  | .hbm, ⟨29, _⟩ => ⟨S100000x128, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S100000x128, .f32⟩
  | .hbm, ⟨47, _⟩ => ⟨S800000x1, .i32⟩
  | .hbm, ⟨48, _⟩ => ⟨S100000x128, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x384, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S100000x128, .f32⟩
  | .hbm, ⟨74, _⟩ => ⟨S800000x1, .i32⟩
  | .hbm, ⟨75, _⟩ => ⟨S100000x128, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .f32⟩
  | .hbm, ⟨92, _⟩ => ⟨S100000x128, .f32⟩
  | .hbm, ⟨93, _⟩ => ⟨S800000x1, .i32⟩
  | .hbm, ⟨94, _⟩ => ⟨S100000x128, .f32⟩
  | .hbm, ⟨95, _⟩ => ⟨S_, .f32⟩
  | .hbm, ⟨96, _⟩ => ⟨S100000, .f32⟩
  | .hbm, ⟨97, _⟩ => ⟨S100000, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S100000x384, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call0_cst : Ref sig .tc := ⟨.hbm, 60, rfl⟩
abbrev main_call0_v0 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_13 : Ref sig .tc := ⟨.hbm, 82, rfl⟩
abbrev main_v58 : Ref sig .tc := ⟨.hbm, 83, rfl⟩
abbrev main_v59 : Ref sig .tc := ⟨.hbm, 84, rfl⟩
abbrev main_c_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x384_S384x128_S100000x128_1_0_0_1_n_n_wf : DotDims.WF S100000x384 S384x128 S100000x128 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.HostGlue.lean ====
/-
  The host operations between the launch and the two pipelined regions, read as functions of the launch memory.

  Around each dense stage the program gathers node features along the edges and sums them back per node
  (`meanOver`): the features are gathered at one endpoint of every edge (an endpoint below zero is first moved up by
  the number of nodes, `wrapped`), summed into the other endpoint's row, and each row is divided by the larger of
  that node's edge count (`degree`) and one.  The bias vector is recast as a single row.  These operations are the
  same in the program under proof and in the reference, so they are carried as these named functions and never
  opened.

  `entry0_*` read the arrays the first region finds: the node features and first-layer weights as launched, the two
  neighbour means of the launched features, and the first bias as a row.  `entry1_*` read the arrays the second
  region finds: the first region's output, its two neighbour means (over the same edge lists and edge counts), the
  second-layer weights and bias.
-/
import proofs.«143716_j83408264888594_1_alg».proof.Proof.Gen.KernelIdeal.Frame
import Idealize.ShloMosaic.Lib.StableHlo.Run
import Idealize.ShloMosaic.PureOps.Ideal

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo

/-- One endpoint per edge. -/
abbrev EdgeEnds : Type := (⟨S800000, .i32⟩ : BufTy).Contents (Elt Ideal)
/-- One row of 128 features per node. -/
abbrev Features : Type := (⟨S100000x128, .f32⟩ : BufTy).Contents (Elt Ideal)

/-- An endpoint below zero counts from the end: it is moved up by the number of nodes. -/
def wrapped (s : EdgeEnds) : EdgeEnds :=
  select (cmpi .slt s (broadcastInDim S800000 ![] bcast_S_S800000 (constantI S_ 32 0#32)))
    (addi s (broadcastInDim S800000 ![] bcast_S_S800000 (constantI S_ 32 100000#32))) s

/-- How many edges end at each node: a one summed into the endpoint's entry, per edge. -/
def degree (s : EdgeEnds) : (⟨S100000, .f32⟩ : BufTy).Contents (Elt Ideal) :=
  Host.scatterAdd scatter_S100000_S800000x1_S800000_n_0_0_1
    (broadcastInDim S100000 ![] bcast_S_S100000 (constant (F := Ideal) S_ .f32 0x00000000#32))
    (broadcastInDim S800000x1 ![0] bcast_S800000_S800000x1_0 s)
    (broadcastInDim S800000 ![] bcast_S_S800000 (constant (F := Ideal) S_ .f32 0x3F800000#32))

/-- The mean of `h` over each node's neighbours: rows of `h` gathered at the edges' `src` ends, summed into the rows
    of their `dst` ends, each row divided by the larger of the node's edge count and one. -/
def meanOver (h : Features) (src dst : EdgeEnds) : Features :=
  Host.divf
    (Host.scatterAdd scatter_S100000x128_S800000x1_S800000x128_1_0_0_1
      (broadcastInDim S100000x128 ![] bcast_S_S100000x128 (constant (F := Ideal) S_ .f32 0x00000000#32))
      (broadcastInDim S800000x1 ![0] bcast_S800000_S800000x1_0 dst)
      (Host.gather gather_S100000x128_S800000x1_S800000x128_1_0_n_n_0_1_1128 h
        (broadcastInDim S800000x1 ![0] bcast_S800000_S800000x1_0 (wrapped src))))
    (broadcastInDim S100000x128 ![0, 1] bcast_S100000x1_S100000x128_0_1
      (broadcastInDim S100000x1 ![0] bcast_S100000_S100000x1_0
        (maximumf (degree dst) (broadcastInDim S100000 ![] bcast_S_S100000 (constant (F := Ideal) S_ .f32 0x3F800000#32)))))

variable (m : (ℓ : Loc nD τ sig) → Buf (Elt Ideal) ℓ) (ρ : Dev nD → PrngReg)

/-! ## What the first region finds -/

theorem entry0_feat (c : Dev nD) : V1 m ρ c main_arg0 = (m ((c : Thread nD τ).loc main_arg0)) := by
  show StableHlo.after hostOps0 (W0 m ρ c) (Proc.devRef .tc main_arg0) = _
  after_results_simp <;> rfl

theorem entry0_weights (c : Dev nD) : V1 m ρ c main_arg3 = (m ((c : Thread nD τ).loc main_arg3)) := by
  show StableHlo.after hostOps0 (W0 m ρ c) (Proc.devRef .tc main_arg3) = _
  after_results_simp <;> rfl

theorem entry0_in (c : Dev nD) : V1 m ρ c main_v21 = meanOver (m ((c : Thread nD τ).loc main_arg0)) (m ((c : Thread nD τ).loc main_arg1)) (m ((c : Thread nD τ).loc main_arg2)) := by
  show StableHlo.after hostOps0 (W0 m ρ c) (Proc.devRef .tc main_v21) = _
  after_results_simp <;> rfl

theorem entry0_out (c : Dev nD) : V1 m ρ c main_v36 = meanOver (m ((c : Thread nD τ).loc main_arg0)) (m ((c : Thread nD τ).loc main_arg2)) (m ((c : Thread nD τ).loc main_arg1)) := by
  show StableHlo.after hostOps0 (W0 m ρ c) (Proc.devRef .tc main_v36) = _
  after_results_simp <;> rfl

theorem entry0_bias (c : Dev nD) :
    (V1 m ρ c main_v37 : S1x128.Idx → EReal) = shapeCast S1x128 (m ((c : Thread nD τ).loc main_arg4)) shapeCasts_S128_S1x128 := by
  show StableHlo.after hostOps0 (W0 m ρ c) (Proc.devRef .tc main_v37) = _
  after_results_simp <;> rfl

/-! ## Between the regions: what the second stretch of host operations reads -/

/-- The edge lists, the weights and the bias of the second layer are as launched when the first region ends. -/
theorem between_src (c : Dev nD) : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results_simp <;> rfl)

theorem between_dst (c : Dev nD) : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    after_results_simp <;> rfl)

theorem between_weights (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

theorem between_bias (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

/-- The edge counts computed before the first region are still there after it. -/
theorem between_degree_dst (c : Dev nD) : W2 m ρ c (Proc.devRef .tc main_v3) = degree (m ((c : Thread nD τ).loc main_arg2)) :=
  (W2_of_ne m ρ c main_v3 (by decide)).trans (by
    show StableHlo.after hostOps0 (W0 m ρ c) (Proc.devRef .tc main_v3) = _
    after_results_simp <;> rfl)

theorem between_degree_src (c : Dev nD) : W2 m ρ c (Proc.devRef .tc main_v6) = degree (m ((c : Thread nD τ).loc main_arg1)) :=
  (W2_of_ne m ρ c main_v6 (by decide)).trans (by
    show StableHlo.after hostOps0 (W0 m ρ c) (Proc.devRef .tc main_v6) = _
    after_results_simp <;> rfl)

/-! ## What the second region finds, given the first region's output `X` -/

theorem entry1_feat (c : Dev nD) (X : Features) (hX : W2 m ρ c (Proc.devRef .tc main_v38) = X) :
    V3 m ρ c main_v38 = X := by
  show StableHlo.after hostOps1 (W2 m ρ c) (Proc.devRef .tc main_v38) = _
  after_results_simp
  exact hX

theorem entry1_weights (c : Dev nD) : V3 m ρ c main_arg5 = (m ((c : Thread nD τ).loc main_arg5)) := by
  show StableHlo.after hostOps1 (W2 m ρ c) (Proc.devRef .tc main_arg5) = _
  after_results_simp
  exact between_weights m ρ c

theorem entry1_in (c : Dev nD) (X : Features) (hX : W2 m ρ c (Proc.devRef .tc main_v38) = X) :
    V3 m ρ c main_v53 = meanOver X (m ((c : Thread nD τ).loc main_arg1)) (m ((c : Thread nD τ).loc main_arg2)) := by
  show StableHlo.after hostOps1 (W2 m ρ c) (Proc.devRef .tc main_v53) = _
  after_results_simp
  rw [hX, between_src, between_dst, between_degree_dst]
  rfl

theorem entry1_out (c : Dev nD) (X : Features) (hX : W2 m ρ c (Proc.devRef .tc main_v38) = X) :
    V3 m ρ c main_v68 = meanOver X (m ((c : Thread nD τ).loc main_arg2)) (m ((c : Thread nD τ).loc main_arg1)) := by
  show StableHlo.after hostOps1 (W2 m ρ c) (Proc.devRef .tc main_v68) = _
  after_results_simp
  rw [hX, between_src, between_dst, between_degree_src]
  rfl

theorem entry1_bias (c : Dev nD) :
    (V3 m ρ c main_v69 : S1x128.Idx → EReal) = shapeCast S1x128 (m ((c : Thread nD τ).loc main_arg6)) shapeCasts_S128_S1x128 := by
  show StableHlo.after hostOps1 (W2 m ρ c) (Proc.devRef .tc main_v69) = _
  after_results_simp
  rw [between_bias]
  rfl

end Cert.KernelIdeal.Glue

end
-- ==== Proof.JoinedRows.lean ====
/-
  Three row-major arrays with 128 columns each, laid side by side along the column axis, give an array with
  384 columns.  Read at row `r`, column `k`, the joined array holds the first array's entry for `k < 128`,
  the second's (at column `k - 128`) for `128 ≤ k < 256`, and the third's (at column `k - 256`) otherwise.
  The number of rows plays no part, so it is a parameter: the same reading serves a block of rows and the whole
  array.
-/
import Idealize.ShloMosaic.Lib.Pipeline.Value
import Idealize.ShloMosaic.Lib.ValueIdx

noncomputable section

namespace Cert.Sage

open Idealize.ShloMosaic Idealize.ShloMosaic.ValueIdx

/-- Entry `k` of the row of 384 made of three rows of 128 laid end to end. -/
def joined {α : Type} (x y z : Fin 128 → α) (k : Fin 384) : α :=
  if h1 : k.val < 128 then x ⟨k.val, h1⟩
  else if h2 : k.val < 256 then y ⟨k.val - 128, by omega⟩
  else z ⟨k.val - 256, by omega⟩

/-- The side-by-side join of three `R × 128` arrays, read at `(r, k)`, is entry `k` of the three rows `r` laid
    end to end. -/
theorem concatenate_rows {α : Type} {R : Nat} (x y z : (⟨2, ![R, 128]⟩ : Shape).Idx → α)
    (h : Shape.Concatenates [(⟨2, ![R, 128]⟩ : Shape), ⟨2, ![R, 128]⟩, ⟨2, ![R, 128]⟩] ⟨2, ![R, 384]⟩ 1)
    (r : Fin R) (k : Fin 384) :
    concatenate (⟨2, ![R, 384]⟩ : Shape) 1 [⟨⟨2, ![R, 128]⟩, x⟩, ⟨⟨2, ![R, 128]⟩, y⟩, ⟨⟨2, ![R, 128]⟩, z⟩] h (ix2 r k)
      = joined (fun q => x (ix2 r q)) (fun q => y (ix2 r q)) (fun q => z (ix2 r q)) k := by
  unfold joined
  by_cases h1 : k.val < 128
  · rw [dif_pos h1]
    refine concatenate_apply_piece 1 [⟨⟨2, ![R, 128]⟩, x⟩, ⟨⟨2, ![R, 128]⟩, y⟩, ⟨⟨2, ![R, 128]⟩, z⟩] h (ix2 r k) 0 (by show 0 < 3; omega) _ x rfl rfl 0 rfl (ix2 r ⟨k.val, h1⟩) ?_ ?_
    · intro b hb
      match b with
      | ⟨0, _⟩ => rfl
      | ⟨1, _⟩ => exact absurd rfl hb
    · show 0 + k.val = k.val
      omega
  · rw [dif_neg h1]
    by_cases h2 : k.val < 256
    · rw [dif_pos h2]
      refine concatenate_apply_piece 1 [⟨⟨2, ![R, 128]⟩, x⟩, ⟨⟨2, ![R, 128]⟩, y⟩, ⟨⟨2, ![R, 128]⟩, z⟩] h (ix2 r k) 1 (by show 1 < 3; omega) _ y rfl rfl 128 rfl (ix2 r ⟨k.val - 128, by omega⟩) ?_ ?_
      · intro b hb
        match b with
        | ⟨0, _⟩ => rfl
        | ⟨1, _⟩ => exact absurd rfl hb
      · show 128 + (k.val - 128) = k.val
        omega
    · rw [dif_neg h2]
      refine concatenate_apply_piece 1 [⟨⟨2, ![R, 128]⟩, x⟩, ⟨⟨2, ![R, 128]⟩, y⟩, ⟨⟨2, ![R, 128]⟩, z⟩] h (ix2 r k) 2 (by show 2 < 3; omega) _ z rfl rfl 256 rfl (ix2 r ⟨k.val - 256, by omega⟩) ?_ ?_
      · intro b hb
        match b with
        | ⟨0, _⟩ => rfl
        | ⟨1, _⟩ => exact absurd rfl hb
      · show 256 + (k.val - 256) = k.val
        have := k.isLt
        omega

end Cert.Sage

end
-- ==== Proof.Layer.lean ====
/-
  One GraphSAGE layer's dense stage, as a function of whole arrays, index by index, on the extended reals.

  For node `r` the three feature rows — the node's own features `h r`, the mean over its in-neighbours `f r` and
  the mean over its out-neighbours `b r` — are laid end to end into one row of 384 entries; entry `(r, c)` of the
  stage is the inner product of that row with column `c` of the weight matrix, plus the bias `bias c`
  (`affineAt`).  The first layer follows it by `max · 0` (`affineRelu`), the second does not (`affine`).

  The matrix product of a block of rows and the product of all rows contract over the same 384 columns, so at a
  fixed output entry both are the same finite sum; `contraction_rows` states that sum over `k : Fin 384`
  from the four coordinate facts of a product that contracts the left operand's columns with the right
  operand's rows.
-/
import Idealize.ShloMosaic.Lib.ValueIdx
import Idealize.ShloMosaic.PureOps.Ideal.Laws
import proofs.«143716_j83408264888594_1_alg».proof.Proof.JoinedRows

noncomputable section

namespace Cert.Sage

open Idealize.ShloMosaic Idealize.ShloMosaic.ValueIdx

/-- Node features: 100000 nodes, 128 features each. -/
abbrev Nodes : Shape := ⟨2, ![100000, 128]⟩
/-- A layer's weights: 384 joined input features to 128 output features. -/
abbrev Weights : Shape := ⟨2, ![384, 128]⟩
/-- A layer's bias, one entry per output feature. -/
abbrev Bias : Shape := ⟨1, ![128]⟩

/-- Entry `(r, c)` of `[h | f | b] · W + bias`. -/
def affineAt (h f b : Nodes.Idx → EReal) (W : Weights.Idx → EReal) (bias : Bias.Idx → EReal)
    (r : Fin 100000) (c : Fin 128) : EReal :=
  (∑ k : Fin 384, joined (fun q => h (ix2 r q)) (fun q => f (ix2 r q)) (fun q => b (ix2 r q)) k * W (ix2 k c))
    + bias (ix1 c)

/-- `[h | f | b] · W + bias`, the second layer's dense stage. -/
def affine (h f b : Nodes.Idx → EReal) (W : Weights.Idx → EReal) (bias : Bias.Idx → EReal) : Nodes.Idx → EReal :=
  fun i => affineAt h f b W bias (i 0) (i 1)

/-- `max ([h | f | b] · W + bias) 0`, the first layer's dense stage. -/
def affineRelu (h f b : Nodes.Idx → EReal) (W : Weights.Idx → EReal) (bias : Bias.Idx → EReal) : Nodes.Idx → EReal :=
  fun i => max (affineAt h f b W bias (i 0) (i 1)) (Ideal.ofBits .f32 0x00000000#32)

theorem affine_apply (h f b : Nodes.Idx → EReal) (W : Weights.Idx → EReal) (bias : Bias.Idx → EReal) (r : Fin 100000) (c : Fin 128) :
    affine h f b W bias (ix2 r c) = affineAt h f b W bias r c := rfl

theorem affineRelu_apply (h f b : Nodes.Idx → EReal) (W : Weights.Idx → EReal) (bias : Bias.Idx → EReal) (r : Fin 100000) (c : Fin 128) :
    affineRelu h f b W bias (ix2 r c) = max (affineAt h f b W bias r c) (Ideal.ofBits .f32 0x00000000#32) := rfl

/-- A product of an `R × 384` array with a `384 × 128` array that contracts the columns of the first with the rows of
    the second: at output entry `(r, c)` its sum over the contraction index is the sum over `k : Fin 384` of the left
    operand at `(r, k)` times the right operand at `(k, c)`. -/
theorem contraction_rows {R : Nat} (D : DotDims (⟨2, ![R, 384]⟩ : Shape) Weights (⟨2, ![R, 128]⟩ : Shape))
    (hr : D.contr.rank = 1) (hs : D.contr.size ⟨0, by omega⟩ = 384)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (L : (⟨2, ![R, 384]⟩ : Shape).Idx → EReal) (Wt : Weights.Idx → EReal) (r : Fin R) (c : Fin 128) :
    ∑ k : D.contr.Idx, L (D.lhsIdx (ix2 r c) k) * Wt (D.rhsIdx (ix2 r c) k) = ∑ k : Fin 384, L (ix2 r k) * Wt (ix2 k c) := by
  rw [← Equiv.sum_comp (contrEquiv1 D 384 hr hs).symm]
  refine Finset.sum_congr rfl fun k _ => ?_
  have hk := contrEquiv1_symm_val D 384 hr hs k
  have el : D.lhsIdx (ix2 r c) ((contrEquiv1 D 384 hr hs).symm k) = ix2 r k := funext fun a => Fin.ext (by
    match a with
    | ⟨0, _⟩ => exact hl0 _ _
    | ⟨1, _⟩ => exact (hl1 _ _).trans hk)
  have er : D.rhsIdx (ix2 r c) ((contrEquiv1 D 384 hr hs).symm k) = ix2 k c := funext fun a => Fin.ext (by
    match a with
    | ⟨0, _⟩ => exact (hr0 _ _).trans hk
    | ⟨1, _⟩ => exact hr1 _ _)
  rw [el, er]

end Cert.Sage

end
-- ==== Proof.Network.lean ====
/-
  The whole two-layer network as one function of the seven argument arrays, on the extended reals.

  With `in h` the mean of `h` over each node's in-neighbours (gathered at the edges' sources, summed at their
  destinations) and `out h` the mean over its out-neighbours (the edge lists exchanged), the hidden features are
  `max ([feat | in feat | out feat] · W1 + b1) 0` and the result is `[hidden | in hidden | out hidden] · W2 + b2`.
  Both programs compute this function; the bias of a layer reaches the dense stage as a single row, which read
  back at its one row is the bias vector.
-/
import proofs.«143716_j83408264888594_1_alg».proof.Proof.HostGlue
import proofs.«143716_j83408264888594_1_alg».proof.Proof.Layer
import Idealize.ShloMosaic.Lib.Pipeline.Value

noncomputable section

namespace Cert.KernelIdeal.Glue

open Cert.KernelIdeal Cert.KernelIdeal.Gen Idealize.ShloMosaic Idealize.ShloMosaic.ValueIdx Cert.Sage

/-- The first layer's output. -/
def hidden (feat : Features) (src dst : EdgeEnds) (W1 : Weights.Idx → EReal) (b1 : Bias.Idx → EReal) : Features :=
  affineRelu feat (meanOver feat src dst) (meanOver feat dst src) W1 b1

/-- The network's output. -/
def network (feat : Features) (src dst : EdgeEnds) (W1 : Weights.Idx → EReal) (b1 : Bias.Idx → EReal)
    (W2 : Weights.Idx → EReal) (b2 : Bias.Idx → EReal) : Features :=
  affine (hidden feat src dst W1 b1) (meanOver (hidden feat src dst W1 b1) src dst)
    (meanOver (hidden feat src dst W1 b1) dst src) W2 b2

/-- A vector of 128 entries recast as one row, read back at that row, is the vector. -/
theorem row_of_vector (x : S128.Idx → EReal) :
    (fun j : Bias.Idx => shapeCast S1x128 x shapeCasts_S128_S1x128 (ix2 0 (j 0))) = x := by
  funext j
  refine (shapeCast_addUnit_apply ![128] x shapeCasts_S128_S1x128 (ix2 0 (j 0))).trans ?_
  refine congrArg x (funext fun a => ?_)
  match a with
  | ⟨0, _⟩ => rfl

end Cert.KernelIdeal.Glue

end
-- ==== Proof.Payload.lean ====
/-
  What one grid point of the dense stage computes, entry by entry, on the extended reals.

  The body loads three 5000 × 128 blocks `x0 x1 x2` (the rows' own features and the two neighbour means), the whole
  384 × 128 weight matrix `x3` and the 1 × 128 bias row `x4`; it joins the three blocks side by side, multiplies by
  the weights into a zero accumulator, adds the bias row to every row, and — in the first layer only — takes the
  maximum with zero.  At entry `(p, q)` of the block that is the inner product of row `p` of the joined block with
  column `q` of the weights, plus `x4 (0, q)` (`blockAt`), then `max · 0` in the first layer.

  The matrix product's contraction index is re-indexed by `k : Fin 384` (`contraction_rows`), the joined block is
  read by `concatenate_rows`, the casts of a shape to itself are the identity, and the bias row's broadcast reads
  row 0.
-/
import proofs.«143716_j83408264888594_1_alg».proof.Proof.Gen.KernelIdeal.Skeleton
import proofs.«143716_j83408264888594_1_alg».proof.Proof.Layer
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Sage

/-! ## The block product's operand indices -/

theorem lhs_row (i : S5000x128.Idx) (q : dot_S5000x384_S384x128_S5000x128_1_0_0_1_n_n.contr.Idx) :
    (dot_S5000x384_S384x128_S5000x128_1_0_0_1_n_n.lhsIdx i q 0).val = (i 0).val := by
  unfold DotDims.lhsIdx
  rw [dif_neg (show ¬(0 : Fin S5000x384.rank) ∈ dot_S5000x384_S384x128_S5000x128_1_0_0_1_n_n.lhsBatch by decide),
    dif_pos (show (0 : Fin S5000x384.rank) ∈ dot_S5000x384_S384x128_S5000x128_1_0_0_1_n_n.lhsNonContracting by decide)]
  rfl

theorem lhs_col (i : S5000x128.Idx) (q : dot_S5000x384_S384x128_S5000x128_1_0_0_1_n_n.contr.Idx) :
    (dot_S5000x384_S384x128_S5000x128_1_0_0_1_n_n.lhsIdx i q 1).val = (q ⟨0, by decide⟩).val :=
  dot_S5000x384_S384x128_S5000x128_1_0_0_1_n_n.lhsIdx_val_of_single rfl i q

theorem rhs_row (i : S5000x128.Idx) (q : dot_S5000x384_S384x128_S5000x128_1_0_0_1_n_n.contr.Idx) :
    (dot_S5000x384_S384x128_S5000x128_1_0_0_1_n_n.rhsIdx i q 0).val = (q ⟨0, by decide⟩).val :=
  dot_S5000x384_S384x128_S5000x128_1_0_0_1_n_n.rhsIdx_val_of_single rfl i q

theorem rhs_col (i : S5000x128.Idx) (q : dot_S5000x384_S384x128_S5000x128_1_0_0_1_n_n.contr.Idx) :
    (dot_S5000x384_S384x128_S5000x128_1_0_0_1_n_n.rhsIdx i q 1).val = (i 1).val := by
  unfold DotDims.rhsIdx
  rw [dif_neg (show ¬(1 : Fin S384x128.rank) ∈ dot_S5000x384_S384x128_S5000x128_1_0_0_1_n_n.rhsBatch by decide),
    dif_pos (show (1 : Fin S384x128.rank) ∈ dot_S5000x384_S384x128_S5000x128_1_0_0_1_n_n.rhsNonContracting by decide)]
  rfl

/-! ## One entry of the block -/

/-- Entry `(p, q)` of `[x0 | x1 | x2] · x3 + x4` over a block of 5000 rows. -/
def blockAt (x0 x1 x2 : S5000x128.Idx → EReal) (x3 : S384x128.Idx → EReal) (x4 : S1x128.Idx → EReal)
    (p : Fin 5000) (q : Fin 128) : EReal :=
  (∑ k : Fin 384, joined (fun j => x0 (ix2 p j)) (fun j => x1 (ix2 p j)) (fun j => x2 (ix2 p j)) k * x3 (ix2 k q))
    + x4 (ix2 0 q)

/-- The product of the joined block with the weights, into the zero accumulator, at `(p, q)`. -/
theorem product_apply (x0 x1 x2 : FVec Ideal S5000x128 .f32) (x3 : FVec Ideal S384x128 .f32) (p : Fin 5000) (q : Fin 128) :
    matmul (F := Ideal) dot_S5000x384_S384x128_S5000x128_1_0_0_1_n_n none
        (concatenate S5000x384 1 [⟨S5000x128, x0⟩, ⟨S5000x128, x1⟩, ⟨S5000x128, x2⟩] concatenates_S5000x128_S5000x128_S5000x128_S5000x384_d1 : FVec Ideal S5000x384 .f32)
        x3 (constant S5000x128 .f32 0x00000000#32) (ix2 p q)
      = ∑ k : Fin 384, joined (fun j => x0 (ix2 p j)) (fun j => x1 (ix2 p j)) (fun j => x2 (ix2 p j)) k * x3 (ix2 k q) := by
  refine (Ideal.matmul_constant_zero_apply dot_S5000x384_S384x128_S5000x128_1_0_0_1_n_n none _ x3 (ix2 p q)).trans ?_
  refine (contraction_rows dot_S5000x384_S384x128_S5000x128_1_0_0_1_n_n rfl rfl lhs_row lhs_col rhs_row rhs_col _ x3 p q).trans ?_
  refine Finset.sum_congr rfl fun k _ => ?_
  rw [concatenate_rows]

/-- The bias row broadcast over the block's rows reads row 0. -/
theorem bias_apply (x4 : FVec Ideal S1x128 .f32) (p : Fin 5000) (q : Fin 128) :
    broadcastTo S5000x128 x4 broadcasts_S1x128_S5000x128 (ix2 p q) = x4 (ix2 0 q) :=
  broadcastTo_apply x4 broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The first layer's stored value at `(p, q)`. -/
theorem pay0_apply (x0 x1 x2 : Vec Ideal S5000x128 .f32) (x3 : Vec Ideal S384x128 .f32) (x4 : Vec Ideal S1x128 .f32)
    (p : Fin 5000) (q : Fin 128) :
    k0_pay1 (F := Ideal) x0 x1 x2 x3 x4 (ix2 p q) = max (blockAt x0 x1 x2 x3 x4 p q) (Ideal.ofBits .f32 0x00000000#32) := by
  unfold k0_pay1 blockAt
  rw [shapeCast_self x1, shapeCast_self x2, shapeCast_self x4]
  show max (matmul (F := Ideal) dot_S5000x384_S384x128_S5000x128_1_0_0_1_n_n none _ x3 _ (ix2 p q) + broadcastTo S5000x128 x4 broadcasts_S1x128_S5000x128 (ix2 p q)) _ = _
  rw [product_apply, bias_apply]
  rfl

/-- The second layer's stored value at `(p, q)`. -/
theorem pay1_apply (x0 x1 x2 : Vec Ideal S5000x128 .f32) (x3 : Vec Ideal S384x128 .f32) (x4 : Vec Ideal S1x128 .f32)
    (p : Fin 5000) (q : Fin 128) :
    k1_pay1 (F := Ideal) x0 x1 x2 x3 x4 (ix2 p q) = blockAt x0 x1 x2 x3 x4 p q := by
  unfold k1_pay1 blockAt
  rw [shapeCast_self x0, shapeCast_self x1, shapeCast_self x2, shapeCast_self x4]
  show matmul (F := Ideal) dot_S5000x384_S384x128_S5000x128_1_0_0_1_n_n none _ x3 _ (ix2 p q) + broadcastTo S5000x128 x4 broadcasts_S1x128_S5000x128 (ix2 p q) = _
  rw [product_apply, bias_apply]

end Cert.KernelIdeal.Body

end
-- ==== Proof.Blocks.lean ====
/-
  From blocks to whole arrays: what each of the two pipelined regions leaves in its output array.

  Each region walks the 100000 rows in twenty blocks of 5000.  At point `t` the three row windows hold rows
  `5000 t … 5000 t + 4999` of their arrays, the weight and bias windows hold their whole arrays, and the output
  window's block is written back to the same rows of the output array.  Since an output row depends only on the
  same row of the three inputs, what point `t` writes back is rows `5000 t …` of ONE whole-array function — the
  layer's dense stage (`affineRelu` in the first region, `affine` in the second) of the arrays as the region finds
  them.  Row `r` lies in the block of point `r / 5000`, so the blocks cover the array and it ends holding that function.
  Everything is stated for arbitrary contents `V` at the region's entry.
-/
import proofs.«143716_j83408264888594_1_alg».proof.Proof.Gen.KernelIdeal.Frame
import proofs.«143716_j83408264888594_1_alg».proof.Proof.Payload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Sage Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps over the grid: the three row windows and the output move down the rows one block per
    point; the weights and the bias stay whole. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt0 (t : Fin cfg0.N) : t.val < 20 := by
  have h : t.val < grid0.N := t.isLt
  rw [N_0] at h
  exact h

/-- Row `p` of the block at point `t` is row `5000 t + p` of the array: the row windows. -/
theorem rows0_0 (c : Dev nD) (t : Fin cfg0.N) (p : Fin 5000) (j : Fin 128) (r : Fin 100000) (hr : r.val = t.val * 5000 + p.val) :
    (iblk0 V c 0 t : Vec Ideal S5000x128 .f32) (ix2 p j) = (V c main_arg0 : S100000x128.Idx → EReal) (ix2 r j) := by
  obtain ⟨e0, e1, -⟩ := index0 t
  show (V c main_arg0 : S100000x128.Idx → EReal) (((cfg0.win 0).blk t).view.emb (ix2 p j)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * j.val = j.val; omega

theorem rows0_1 (c : Dev nD) (t : Fin cfg0.N) (p : Fin 5000) (j : Fin 128) (r : Fin 100000) (hr : r.val = t.val * 5000 + p.val) :
    (iblk0 V c 1 t : Vec Ideal S5000x128 .f32) (ix2 p j) = (V c main_v21 : S100000x128.Idx → EReal) (ix2 r j) := by
  obtain ⟨-, -, e0, e1, -⟩ := index0 t
  show (V c main_v21 : S100000x128.Idx → EReal) (((cfg0.win 1).blk t).view.emb (ix2 p j)) = _
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * j.val = j.val; omega

theorem rows0_2 (c : Dev nD) (t : Fin cfg0.N) (p : Fin 5000) (j : Fin 128) (r : Fin 100000) (hr : r.val = t.val * 5000 + p.val) :
    (iblk0 V c 2 t : Vec Ideal S5000x128 .f32) (ix2 p j) = (V c main_v36 : S100000x128.Idx → EReal) (ix2 r j) := by
  obtain ⟨-, -, -, -, e0, e1, -⟩ := index0 t
  show (V c main_v36 : S100000x128.Idx → EReal) (((cfg0.win 2).blk t).view.emb (ix2 p j)) = _
  refine congrArg _ (funext fun a => Fin.ext ?_)
  match a with
  | ⟨0, _⟩ => show win0_2.index t (0 : Fin 2) * 5000 + 1 * p.val = r.val; omega
  | ⟨1, _⟩ => show win0_2.index t (1 : Fin 2) * 128 + 1 * j.val = j.val; omega

/-- The weights' block is the whole matrix at every point. -/
theorem weights0 (c : Dev nD) (t : Fin cfg0.N) (k : Fin 384) (q : Fin 128) :
    (iblk0 V c 3 t : Vec Ideal S384x128 .f32) (ix2 k q) = (V c main_arg3 : S384x128.Idx → EReal) (ix2 k q) := by
  obtain ⟨-, -, -, -, -, -, e0, e1, -⟩ := index0 t
  show (V c main_arg3 : S384x128.Idx → EReal) (((cfg0.win 3).blk t).view.emb (ix2 k q)) = _
  refine congrArg _ (funext fun a => Fin.ext ?_)
  match a with
  | ⟨0, _⟩ => show win0_3.index t (0 : Fin 2) * 384 + 1 * k.val = k.val; omega
  | ⟨1, _⟩ => show win0_3.index t (1 : Fin 2) * 128 + 1 * q.val = q.val; omega

/-- The bias row's block is the whole row at every point. -/
theorem biasrow0 (c : Dev nD) (t : Fin cfg0.N) (q : Fin 128) :
    (iblk0 V c 4 t : Vec Ideal S1x128 .f32) (ix2 0 q) = (V c main_v37 : S1x128.Idx → EReal) (ix2 0 q) := by
  obtain ⟨-, -, -, -, -, -, -, -, e0, e1, -⟩ := index0 t
  show (V c main_v37 : S1x128.Idx → EReal) (((cfg0.win 4).blk t).view.emb (ix2 0 q)) = _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- What point `t` writes back is rows `5000 t … 5000 t + 4999` of the layer's dense stage of the arrays the region
    finds. -/
theorem flushed0_eq (c : Dev nD) (t : Fin cfg0.N) :
    (dat0 V c).flushed 5 t = ((cfg0.win 5).blk t).view.read (Elt Ideal)
      (affineRelu (V c main_arg0) (V c main_v21) (V c main_v36) (V c main_arg3) (fun j => (V c main_v37 : S1x128.Idx → EReal) (ix2 0 (j 0)))) := by
  show (cfg0.win 5).cut (grid0.coords t) ((dat0 V c).after 5 t) = _
  rw [after0_5]
  unfold out0_5
  rw [View.canon_unit_zero hz]
  simp only [View.ld_unit_zero (S := S5000x128) hz, View.ld_unit_zero (S := S384x128) hz, View.ld_unit_zero (S := S1x128) hz]
  funext y
  obtain ⟨p, q, rfl⟩ : ∃ (p : Fin 5000) (q : Fin 128), y = ix2 p q := ⟨y 0, y 1, eq_ix2 y⟩
  have ht := point_lt0 t
  obtain ⟨r, hr⟩ : ∃ r : Fin 100000, r.val = t.val * 5000 + p.val := ⟨⟨t.val * 5000 + p.val, by have := p.isLt; omega⟩, rfl⟩
  have hemb : ((cfg0.win 5).blk t).view.emb (ix2 p q) = (ix2 r q : S100000x128.Idx) := by
    obtain ⟨-, -, -, -, -, -, -, -, -, -, e0, e1⟩ := index0 t
    refine funext fun a => Fin.ext ?_
    match a with
    | ⟨0, _⟩ => show win0_5.index t (0 : Fin 2) * 5000 + 1 * p.val = r.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = affineRelu (V c main_arg0) (V c main_v21) (V c main_v36) (V c main_arg3) (fun j => (V c main_v37 : S1x128.Idx → EReal) (ix2 0 (j 0))) (((cfg0.win 5).blk t).view.emb (ix2 p q))
  rw [hemb, affineRelu_apply]
  refine (pay0_apply (iblk0 V c 0 t) (iblk0 V c 1 t) (iblk0 V c 2 t) (iblk0 V c 3 t) (iblk0 V c 4 t) p q).trans ?_
  have h0 : (fun j => (iblk0 V c 0 t : Vec Ideal S5000x128 .f32) (ix2 p j)) = fun j => (V c main_arg0 : S100000x128.Idx → EReal) (ix2 r j) :=
    funext fun j => rows0_0 V c t p j r hr
  have h1 : (fun j => (iblk0 V c 1 t : Vec Ideal S5000x128 .f32) (ix2 p j)) = fun j => (V c main_v21 : S100000x128.Idx → EReal) (ix2 r j) :=
    funext fun j => rows0_1 V c t p j r hr
  have h2 : (fun j => (iblk0 V c 2 t : Vec Ideal S5000x128 .f32) (ix2 p j)) = fun j => (V c main_v36 : S100000x128.Idx → EReal) (ix2 r j) :=
    funext fun j => rows0_2 V c t p j r hr
  unfold blockAt affineAt
  rw [h0, h1, h2, biasrow0 V c t q]
  simp only [weights0 V c t]

/-- An index of the output array is in point `t`'s block iff each coordinate is in the block's range. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v38).slice (win0_5.rect t)).set ↔ _
  rw [View.set_slice_whole, Rect.mem_set_unit]
  exact Iff.rfl

/-- Row `r` of the output is written back by point `r / 5000`: the twenty blocks cover the array. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, htv⟩ : ∃ t : Fin cfg0.N, t.val = (i 0).val / 5000 :=
    ⟨⟨(i 0).val / 5000, by show _ < grid0.N; rw [N_0]; omega⟩, rfl⟩
  obtain ⟨-, -, -, -, -, -, -, -, -, -, e0, e1⟩ := index0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the region its output array holds the layer's dense stage of the arrays the region found. -/
theorem final0 (c : Dev nD) :
    (dat0 V c).arrAt 5 cfg0.N
      = affineRelu (V c main_arg0) (V c main_v21) (V c main_v36) (V c main_arg3) (fun j => (V c main_v37 : S1x128.Idx → EReal) (ix2 0 (j 0))) :=
  (dat0 V c).arrAt_eq_of_cover 5 _ (fun t _ => flushed0_eq V c t) (cover0)

/-! ## Region 1 -/

/-- The printed index maps over the grid: the three row windows and the output move down the rows one block per
    point; the weights and the bias stay whole. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt1 (t : Fin cfg1.N) : t.val < 20 := by
  have h : t.val < grid1.N := t.isLt
  rw [N_1] at h
  exact h

/-- Row `p` of the block at point `t` is row `5000 t + p` of the array: the row windows. -/
theorem rows1_0 (c : Dev nD) (t : Fin cfg1.N) (p : Fin 5000) (j : Fin 128) (r : Fin 100000) (hr : r.val = t.val * 5000 + p.val) :
    (iblk1 V c 0 t : Vec Ideal S5000x128 .f32) (ix2 p j) = (V c main_v38 : S100000x128.Idx → EReal) (ix2 r j) := by
  obtain ⟨e0, e1, -⟩ := index1 t
  show (V c main_v38 : S100000x128.Idx → EReal) (((cfg1.win 0).blk t).view.emb (ix2 p j)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * j.val = j.val; omega

theorem rows1_1 (c : Dev nD) (t : Fin cfg1.N) (p : Fin 5000) (j : Fin 128) (r : Fin 100000) (hr : r.val = t.val * 5000 + p.val) :
    (iblk1 V c 1 t : Vec Ideal S5000x128 .f32) (ix2 p j) = (V c main_v53 : S100000x128.Idx → EReal) (ix2 r j) := by
  obtain ⟨-, -, e0, e1, -⟩ := index1 t
  show (V c main_v53 : S100000x128.Idx → EReal) (((cfg1.win 1).blk t).view.emb (ix2 p j)) = _
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * j.val = j.val; omega

theorem rows1_2 (c : Dev nD) (t : Fin cfg1.N) (p : Fin 5000) (j : Fin 128) (r : Fin 100000) (hr : r.val = t.val * 5000 + p.val) :
    (iblk1 V c 2 t : Vec Ideal S5000x128 .f32) (ix2 p j) = (V c main_v68 : S100000x128.Idx → EReal) (ix2 r j) := by
  obtain ⟨-, -, -, -, e0, e1, -⟩ := index1 t
  show (V c main_v68 : S100000x128.Idx → EReal) (((cfg1.win 2).blk t).view.emb (ix2 p j)) = _
  refine congrArg _ (funext fun a => Fin.ext ?_)
  match a with
  | ⟨0, _⟩ => show win1_2.index t (0 : Fin 2) * 5000 + 1 * p.val = r.val; omega
  | ⟨1, _⟩ => show win1_2.index t (1 : Fin 2) * 128 + 1 * j.val = j.val; omega

/-- The weights' block is the whole matrix at every point. -/
theorem weights1 (c : Dev nD) (t : Fin cfg1.N) (k : Fin 384) (q : Fin 128) :
    (iblk1 V c 3 t : Vec Ideal S384x128 .f32) (ix2 k q) = (V c main_arg5 : S384x128.Idx → EReal) (ix2 k q) := by
  obtain ⟨-, -, -, -, -, -, e0, e1, -⟩ := index1 t
  show (V c main_arg5 : S384x128.Idx → EReal) (((cfg1.win 3).blk t).view.emb (ix2 k q)) = _
  refine congrArg _ (funext fun a => Fin.ext ?_)
  match a with
  | ⟨0, _⟩ => show win1_3.index t (0 : Fin 2) * 384 + 1 * k.val = k.val; omega
  | ⟨1, _⟩ => show win1_3.index t (1 : Fin 2) * 128 + 1 * q.val = q.val; omega

/-- The bias row's block is the whole row at every point. -/
theorem biasrow1 (c : Dev nD) (t : Fin cfg1.N) (q : Fin 128) :
    (iblk1 V c 4 t : Vec Ideal S1x128 .f32) (ix2 0 q) = (V c main_v69 : S1x128.Idx → EReal) (ix2 0 q) := by
  obtain ⟨-, -, -, -, -, -, -, -, e0, e1, -⟩ := index1 t
  show (V c main_v69 : S1x128.Idx → EReal) (((cfg1.win 4).blk t).view.emb (ix2 0 q)) = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- What point `t` writes back is rows `5000 t … 5000 t + 4999` of the layer's dense stage of the arrays the region
    finds. -/
theorem flushed1_eq (c : Dev nD) (t : Fin cfg1.N) :
    (dat1 V c).flushed 5 t = ((cfg1.win 5).blk t).view.read (Elt Ideal)
      (affine (V c main_v38) (V c main_v53) (V c main_v68) (V c main_arg5) (fun j => (V c main_v69 : S1x128.Idx → EReal) (ix2 0 (j 0)))) := by
  show (cfg1.win 5).cut (grid1.coords t) ((dat1 V c).after 5 t) = _
  rw [after1_5]
  unfold out1_5
  rw [View.canon_unit_zero hz]
  simp only [View.ld_unit_zero (S := S5000x128) hz, View.ld_unit_zero (S := S384x128) hz, View.ld_unit_zero (S := S1x128) hz]
  funext y
  obtain ⟨p, q, rfl⟩ : ∃ (p : Fin 5000) (q : Fin 128), y = ix2 p q := ⟨y 0, y 1, eq_ix2 y⟩
  have ht := point_lt1 t
  obtain ⟨r, hr⟩ : ∃ r : Fin 100000, r.val = t.val * 5000 + p.val := ⟨⟨t.val * 5000 + p.val, by have := p.isLt; omega⟩, rfl⟩
  have hemb : ((cfg1.win 5).blk t).view.emb (ix2 p q) = (ix2 r q : S100000x128.Idx) := by
    obtain ⟨-, -, -, -, -, -, -, -, -, -, e0, e1⟩ := index1 t
    refine funext fun a => Fin.ext ?_
    match a with
    | ⟨0, _⟩ => show win1_5.index t (0 : Fin 2) * 5000 + 1 * p.val = r.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = affine (V c main_v38) (V c main_v53) (V c main_v68) (V c main_arg5) (fun j => (V c main_v69 : S1x128.Idx → EReal) (ix2 0 (j 0))) (((cfg1.win 5).blk t).view.emb (ix2 p q))
  rw [hemb, affine_apply]
  refine (pay1_apply (iblk1 V c 0 t) (iblk1 V c 1 t) (iblk1 V c 2 t) (iblk1 V c 3 t) (iblk1 V c 4 t) p q).trans ?_
  have h0 : (fun j => (iblk1 V c 0 t : Vec Ideal S5000x128 .f32) (ix2 p j)) = fun j => (V c main_v38 : S100000x128.Idx → EReal) (ix2 r j) :=
    funext fun j => rows1_0 V c t p j r hr
  have h1 : (fun j => (iblk1 V c 1 t : Vec Ideal S5000x128 .f32) (ix2 p j)) = fun j => (V c main_v53 : S100000x128.Idx → EReal) (ix2 r j) :=
    funext fun j => rows1_1 V c t p j r hr
  have h2 : (fun j => (iblk1 V c 2 t : Vec Ideal S5000x128 .f32) (ix2 p j)) = fun j => (V c main_v68 : S100000x128.Idx → EReal) (ix2 r j) :=
    funext fun j => rows1_2 V c t p j r hr
  unfold blockAt affineAt
  rw [h0, h1, h2, biasrow1 V c t q]
  simp only [weights1 V c t]

/-- An index of the output array is in point `t`'s block iff each coordinate is in the block's range. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v70).slice (win1_5.rect t)).set ↔ _
  rw [View.set_slice_whole, Rect.mem_set_unit]
  exact Iff.rfl

/-- Row `r` of the output is written back by point `r / 5000`: the twenty blocks cover the array. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, htv⟩ : ∃ t : Fin cfg1.N, t.val = (i 0).val / 5000 :=
    ⟨⟨(i 0).val / 5000, by show _ < grid1.N; rw [N_1]; omega⟩, rfl⟩
  obtain ⟨-, -, -, -, -, -, -, -, -, -, e0, e1⟩ := index1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the region its output array holds the layer's dense stage of the arrays the region found. -/
theorem final1 (c : Dev nD) :
    (dat1 V c).arrAt 5 cfg1.N
      = affine (V c main_v38) (V c main_v53) (V c main_v68) (V c main_arg5) (fun j => (V c main_v69 : S1x128.Idx → EReal) (ix2 0 (j 0))) :=
  (dat1 V c).arrAt_eq_of_cover 5 _ (fun t _ => flushed1_eq V c t) (cover1)

end Cert.KernelIdeal.Blocks

end
-- ==== Proof.KernelRun.lean ====
/-
  The program's run with its result named.

  The program is four segments in a row: host operations, the first pipelined region, host operations, the second
  pipelined region.  The contents of every buffer at each boundary are a fold through the segments (`W0 … W4` of
  the frame module); the run over these segments ends with every unscoped buffer at the last fold `W4`.  The frame
  statement reads only the argument arrays off that final state.  Here the same run is read at the result array as
  well: it ends holding `W4` at the second region's output.
-/
import proofs.«143716_j83408264888594_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents
    and the arguments end as launched. -/
theorem run : θ_run defs (onTc (τ := τ) (main (F := F))) ⟨m, fun _ => 0, ρ⟩ (fun r => ∀ c : Dev nD,
      r.2.mem ((c.tc : Thread nD τ).loc main_v70) = W4 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v70 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.KernelValue.lean ====
/-
  What the program under proof computes: its result array ends holding the network of the launched arguments.

  Read backwards from the end of the run: the result array is the second region's output array, which holds the
  second layer's dense stage of what that region finds; what it finds are the first region's output and its two
  neighbour means, the second weights and the second bias as a row; the first region's output holds the first
  layer's dense stage of the launched features, their two neighbour means, the first weights and the first bias as a
  row.  Substituting gives `network` of the seven launched arrays.
-/
import proofs.«143716_j83408264888594_1_alg».proof.Proof.Network
import proofs.«143716_j83408264888594_1_alg».proof.Proof.Blocks
import proofs.«143716_j83408264888594_1_alg».proof.Proof.KernelRun

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx Cert.Sage Cert.KernelIdeal.Glue Cert.KernelIdeal.Blocks

variable (m : (ℓ : Loc nD τ sig) → Buf (Elt Ideal) ℓ) (ρ : Dev nD → PrngReg)

/-- The first region's output array, when the region ends, holds the hidden features. -/
theorem first_output (c : Dev nD) :
    W2 m ρ c (Proc.devRef .tc main_v38)
      = hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [final0 (V1 m ρ) c, entry0_feat, entry0_in, entry0_out, entry0_weights, entry0_bias, row_of_vector]
  rfl

/-- The result array, at the end of the run, holds the network of the launched arguments. -/
theorem last_output (c : Dev nD) :
    W4 m ρ c (Proc.devRef .tc main_v70)
      = network (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) := by
  refine (W4_arr m ρ c 5).trans ?_
  rw [final1 (V3 m ρ) c, entry1_feat m ρ c _ (first_output m ρ c), entry1_in m ρ c _ (first_output m ρ c),
    entry1_out m ρ c _ (first_output m ρ c), entry1_weights, entry1_bias, row_of_vector]
  rfl

/-- Every weakly fair execution terminates with the result array at the network of the arguments, the arguments
    unchanged. -/
theorem run : θ_run defs (onTc (τ := τ) (main (F := Ideal))) ⟨m, fun _ => 0, ρ⟩ (fun r => ∀ c : Dev nD,
      r.2.mem ((c.tc : Thread nD τ).loc main_v70)
        = network (m ((c : Thread nD τ).loc main_arg0)) (m ((c : Thread nD τ).loc main_arg1)) (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (last_output m ρ c), (h c).2⟩) (Cert.KernelIdeal.Run.run m ρ)

end Cert.KernelIdeal.Value

end
-- ==== Proof.RefLayer.lean ====
/-
  The reference's dense stage, read entry by entry on the extended reals.

  The reference joins the three whole 100000 × 128 arrays side by side, multiplies the 100000 × 384 result by the
  weights with the host's general product (contracting the joined columns with the weights' rows), adds the bias —
  a vector of 128 entries made into a 1 × 128 row and then repeated down the rows —, and in the first layer takes
  the maximum with an array of zeros.  At entry `(r, c)` this is `affineAt`: the same sum over the 384 joined
  columns that a block of rows computes, and the bias entry `c`.
-/
import proofs.«143716_j83408264888594_1_alg».proof.ReferenceIdeal
import proofs.«143716_j83408264888594_1_alg».proof.Proof.Gen.ReferenceIdeal
import proofs.«143716_j83408264888594_1_alg».proof.Proof.Layer
import Idealize.ShloMosaic.Lib.Pipeline.Value
import Idealize.ShloMosaic.PureOps.Ideal.Laws

noncomputable section

namespace Cert.ReferenceIdeal.Dense

open Cert.ReferenceIdeal Cert.ReferenceIdeal.Gen Idealize.ShloMosaic Idealize.ShloMosaic.ValueIdx Cert.Sage

/-! ## The whole product's operand indices -/

theorem lhs_row (i : S100000x128.Idx) (q : dot_S100000x384_S384x128_S100000x128_1_0_0_1_n_n.contr.Idx) :
    (dot_S100000x384_S384x128_S100000x128_1_0_0_1_n_n.lhsIdx i q 0).val = (i 0).val := by
  unfold DotDims.lhsIdx
  rw [dif_neg (show ¬(0 : Fin S100000x384.rank) ∈ dot_S100000x384_S384x128_S100000x128_1_0_0_1_n_n.lhsBatch by decide),
    dif_pos (show (0 : Fin S100000x384.rank) ∈ dot_S100000x384_S384x128_S100000x128_1_0_0_1_n_n.lhsNonContracting by decide)]
  rfl

theorem lhs_col (i : S100000x128.Idx) (q : dot_S100000x384_S384x128_S100000x128_1_0_0_1_n_n.contr.Idx) :
    (dot_S100000x384_S384x128_S100000x128_1_0_0_1_n_n.lhsIdx i q 1).val = (q ⟨0, by decide⟩).val :=
  dot_S100000x384_S384x128_S100000x128_1_0_0_1_n_n.lhsIdx_val_of_single rfl i q

theorem rhs_row (i : S100000x128.Idx) (q : dot_S100000x384_S384x128_S100000x128_1_0_0_1_n_n.contr.Idx) :
    (dot_S100000x384_S384x128_S100000x128_1_0_0_1_n_n.rhsIdx i q 0).val = (q ⟨0, by decide⟩).val :=
  dot_S100000x384_S384x128_S100000x128_1_0_0_1_n_n.rhsIdx_val_of_single rfl i q

theorem rhs_col (i : S100000x128.Idx) (q : dot_S100000x384_S384x128_S100000x128_1_0_0_1_n_n.contr.Idx) :
    (dot_S100000x384_S384x128_S100000x128_1_0_0_1_n_n.rhsIdx i q 1).val = (i 1).val := by
  unfold DotDims.rhsIdx
  rw [dif_neg (show ¬(1 : Fin S384x128.rank) ∈ dot_S100000x384_S384x128_S100000x128_1_0_0_1_n_n.rhsBatch by decide),
    dif_pos (show (1 : Fin S384x128.rank) ∈ dot_S100000x384_S384x128_S100000x128_1_0_0_1_n_n.rhsNonContracting by decide)]
  rfl

/-! ## The stage at an entry -/

/-- The host's product of the joined array with the weights, at `(r, c)`. -/
theorem product_apply (X Y Z : FVec Ideal S100000x128 .f32) (W : FVec Ideal S384x128 .f32) (r : Fin 100000) (c : Fin 128) :
    Host.dotGeneral (F := Ideal) dot_S100000x384_S384x128_S100000x128_1_0_0_1_n_n none
        (concatenate S100000x384 1 [⟨S100000x128, X⟩, ⟨S100000x128, Y⟩, ⟨S100000x128, Z⟩] concatenates_S100000x128_S100000x128_S100000x128_S100000x384_d1)
        W (ix2 r c)
      = ∑ k : Fin 384, joined (fun j => X (ix2 r j)) (fun j => Y (ix2 r j)) (fun j => Z (ix2 r j)) k * W (ix2 k c) := by
  simp only [Host.dotGeneral]
  rw [Ideal.dotGeneral_apply]
  refine (contraction_rows dot_S100000x384_S384x128_S100000x128_1_0_0_1_n_n rfl rfl lhs_row lhs_col rhs_row rhs_col _ W r c).trans ?_
  refine Finset.sum_congr rfl fun k _ => ?_
  rw [concatenate_rows]

/-- The bias vector, made a row and repeated down the rows, at `(r, c)`. -/
theorem bias_apply (b : FVec Ideal S128 .f32) (r : Fin 100000) (c : Fin 128) :
    broadcastInDim S100000x128 ![0, 1] bcast_S1x128_S100000x128_0_1 (broadcastInDim S1x128 ![1] bcast_S128_S1x128_1 b) (ix2 r c)
      = b (ix1 c) := by
  rw [broadcastInDim_apply ![0, 1] bcast_S1x128_S100000x128_0_1 _ (ix2 r c) (ix2 0 c) (fun a => match a with
    | ⟨0, _⟩ => by show 0 = if (1 : Nat) = 1 then 0 else r.val; rw [if_pos rfl]
    | ⟨1, _⟩ => by show c.val = if (128 : Nat) = 1 then 0 else c.val; rw [if_neg (by decide)])]
  exact broadcastInDim_apply ![1] bcast_S128_S1x128_1 b (ix2 0 c) (ix1 c) (fun a => match a with
    | ⟨0, _⟩ => by show c.val = if (128 : Nat) = 1 then 0 else c.val; rw [if_neg (by decide)])

/-- The second layer's dense stage as the reference writes it is `affine`. -/
theorem affine_eq (X Y Z : FVec Ideal S100000x128 .f32) (W : FVec Ideal S384x128 .f32) (b : FVec Ideal S128 .f32) :
    addf (Host.dotGeneral (F := Ideal) dot_S100000x384_S384x128_S100000x128_1_0_0_1_n_n none
        (concatenate S100000x384 1 [⟨S100000x128, X⟩, ⟨S100000x128, Y⟩, ⟨S100000x128, Z⟩] concatenates_S100000x128_S100000x128_S100000x128_S100000x384_d1) W)
      (broadcastInDim S100000x128 ![0, 1] bcast_S1x128_S100000x128_0_1 (broadcastInDim S1x128 ![1] bcast_S128_S1x128_1 b))
      = affine X Y Z W b := by
  funext i
  obtain ⟨r, c, rfl⟩ : ∃ (r : Fin 100000) (c : Fin 128), i = ix2 r c := ⟨i 0, i 1, eq_ix2 i⟩
  show Host.dotGeneral (F := Ideal) dot_S100000x384_S384x128_S100000x128_1_0_0_1_n_n none _ W (ix2 r c) + broadcastInDim S100000x128 ![0, 1] bcast_S1x128_S100000x128_0_1 (broadcastInDim S1x128 ![1] bcast_S128_S1x128_1 b) (ix2 r c) = _
  rw [product_apply, bias_apply]
  rfl

/-- The first layer's dense stage as the reference writes it is `affineRelu`. -/
theorem affineRelu_eq (X Y Z : FVec Ideal S100000x128 .f32) (W : FVec Ideal S384x128 .f32) (b : FVec Ideal S128 .f32) :
    maximumf (addf (Host.dotGeneral (F := Ideal) dot_S100000x384_S384x128_S100000x128_1_0_0_1_n_n none
        (concatenate S100000x384 1 [⟨S100000x128, X⟩, ⟨S100000x128, Y⟩, ⟨S100000x128, Z⟩] concatenates_S100000x128_S100000x128_S100000x128_S100000x384_d1) W)
      (broadcastInDim S100000x128 ![0, 1] bcast_S1x128_S100000x128_0_1 (broadcastInDim S1x128 ![1] bcast_S128_S1x128_1 b)))
      (broadcastInDim S100000x128 ![] bcast_S_S100000x128 (constant S_ .f32 0x00000000#32))
      = affineRelu X Y Z W b := by
  funext i
  obtain ⟨r, c, rfl⟩ : ∃ (r : Fin 100000) (c : Fin 128), i = ix2 r c := ⟨i 0, i 1, eq_ix2 i⟩
  show max (Host.dotGeneral (F := Ideal) dot_S100000x384_S384x128_S100000x128_1_0_0_1_n_n none _ W (ix2 r c) + broadcastInDim S100000x128 ![0, 1] bcast_S1x128_S100000x128_0_1 (broadcastInDim S1x128 ![1] bcast_S128_S1x128_1 b) (ix2 r c)) _ = _
  rw [product_apply, bias_apply]
  rfl

end Cert.ReferenceIdeal.Dense

end
-- ==== Proof.RefValue.lean ====
/-
  What the reference computes: its result is the same network of its arguments.

  The reference's result is one composed term of host operations.  Its two dense stages are `affineRelu` and
  `affine` of their operands (read entry by entry in the dense-stage module); what is left around them are the
  gathers, sums and divisions of the neighbour means, which are the very operations the other program runs between
  its regions, so the term is `network` of the arguments.
-/
import proofs.«143716_j83408264888594_1_alg».proof.Proof.Gen.ReferenceIdeal.Run
import proofs.«143716_j83408264888594_1_alg».proof.Proof.RefLayer
import proofs.«143716_j83408264888594_1_alg».proof.Proof.Network

set_option maxRecDepth 16384

noncomputable section

namespace Cert.ReferenceIdeal.Dense

open Cert.ReferenceIdeal Cert.ReferenceIdeal.Gen Idealize.ShloMosaic Idealize.ShloMosaic.TcCoe Idealize.SL.Sem
open Cert.Sage Cert.KernelIdeal.Glue

/-- The reference's result term is the network of the reference's arguments. -/
theorem result_eq (m : (ℓ : Loc nD τ sig) → Buf (Elt Ideal) ℓ) (c : Dev nD) :
    Cert.ReferenceIdeal.Value.res_main_v77 (F := Ideal) m c
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.Value.res_main_v77
  rw [affineRelu_eq, affine_eq]
  rfl

end Cert.ReferenceIdeal.Dense

end
-- ==== Proof.lean ====
/-
  Two-layer bidirectional GraphSAGE (mean aggregation over in- and out-neighbours, the node's own features and the
  two means joined and passed through a linear map; a rectifier after the first layer), 100000 nodes with 128
  features, 800000 edges: the program with the dense stage as a pipelined kernel over blocks of 5000 rows, against
  the plain array program.

  On the extended reals both compute one function of the seven argument arrays (`network`).  The gathers, the
  per-node sums, the edge counts and the divisions are the same host operations in both programs and are never
  opened.  The dense stage differs only in its arrangement: the kernel forms `[h | in | out] · W + b` for 5000 rows at
  a time, the reference for all rows at once; entry `(r, c)` of either is the same sum over the 384 joined columns
  of row `r` against column `c` of `W`, plus `b c` — no entry depends on another row, so the twenty blocks are the
  rows of the one whole-array function, and no algebraic law beyond reading both sums at the same index is needed
  (in particular nothing about finiteness).  The ideal pass rewrote nothing, so the idealization claim is trivial.
  The three frames are the generated frame runs (the reference's is its generated run with the result dropped).
-/
import proofs.«143716_j83408264888594_1_alg».proof.Defs
import proofs.«143716_j83408264888594_1_alg».proof.Proof.Gen.Kernel
import proofs.«143716_j83408264888594_1_alg».proof.Proof.Gen.Kernel.Frame
import proofs.«143716_j83408264888594_1_alg».proof.Proof.Gen.KernelIdeal
import proofs.«143716_j83408264888594_1_alg».proof.Proof.Gen.KernelIdeal.Frame
import proofs.«143716_j83408264888594_1_alg».proof.Proof.Gen.ReferenceIdeal
import proofs.«143716_j83408264888594_1_alg».proof.Proof.Gen.Pre_finite_inputs
import proofs.«143716_j83408264888594_1_alg».proof.Proof.Gen.ReferenceIdeal.Run
import proofs.«143716_j83408264888594_1_alg».proof.Proof.Gen.ReferenceIdeal.Read
import proofs.«143716_j83408264888594_1_alg».proof.Proof.KernelValue
import proofs.«143716_j83408264888594_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of the (agreeing) arguments. -/
theorem algebraic : Cert.algebraic_KernelIdeal_ReferenceIdeal := by
  intro m ρ m' ρ' _ hagree
  refine ⟨fun c => Cert.KernelIdeal.Glue.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Dense.result_eq, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
